-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : FVec F S4096x1 .f32) (main_arg3 : FVec F S4096x1 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S8192x4096 : Shape := ⟨2, ![8192, 4096]⟩
abbrev S1x4096 : Shape := ⟨2, ![1, 4096]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  broadcasts_S1024x1_S1024x512 : S1024x1.Broadcasts S1024x512
  bitsLt_bf16_f32 : FTy.bits .bf16 < FTy.bits .f32
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the kernel body leaves behind, as values of what it loaded.

  The body keeps a 1024 x 1024 accumulator block between grid points. At the first step of a row of eight steps it
  stores the zero block and then adds that step's product block onto it; at every later step it adds the step's
  product block onto what the step before left; at the last step it also stores, into the output block, the
  accumulator plus the bias row broadcast down the rows. Each of these is one store covering the whole block, read
  through loads of whole blocks, so the contents left are exactly the arithmetic of the store applied to the loaded
  blocks: the accumulator update (the payload `k0_pay2`), the zero block (`k0_pay1`) and the epilogue (`k0_pay3`).
-/
import proofs.«141397_j56453050138624_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

/-- The zero offsets of a rank-2 block, as a constant function. -/
theorem offsets_zero : (![0, 0] : Fin 2 → Nat) = fun _ => 0 := funext fun a => by fin_cases a <;> rfl

/-- A later step (neither first nor last of its row): the accumulator `acc` becomes `acc` plus the product of the
    input block `x` with the dequantized weight block (`w` the integer weights, `zp` and `sc` the per-row zero point
    and scale). -/
theorem later_step (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 : Vec F S1024x512 .f32) (x1 : Vec F S1024x512 .i32) (x2 : Vec F S1024x1 .f32) (x3 : Vec F S1024x1 .f32) (x4 : Vec F S1x1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 x1 x3 x2 x0 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  rw [View.canon_unit_zero offsets_zero]
  simp only [View.readAt_eq_ld, harg3.read_unread, harg4.read_unread, harg5.read_unread, harg6.read_unread,
    harg9.read_unread, View.ld_unit_zero (S := S1024x512) offsets_zero, View.ld_unit_zero (S := S1024x1) offsets_zero,
    View.ld_unit_zero (S := S1024x1024) offsets_zero]

/-- The first step of a row: the accumulator is zeroed, read back, and the step's product added: the same update
    applied to the zero block. -/
theorem first_step (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 : Vec F S1024x512 .f32) (x1 : Vec F S1024x512 .i32) (x2 : Vec F S1024x1 .f32) (x3 : Vec F S1024x1 .f32) (x4 : Vec F S1x1024 .f32) :
    sout0_A_0 c i arg3 harg3 arg4 harg4 arg5 harg5 arg6 harg6 arg7 harg7 arg8 harg8 arg9 harg9 hc0 hc1 x0 x1 x2 x3 x4 = k0_pay2 x1 x3 x2 x0 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) offsets_zero, View.readCov_unit_zero (S := S1024x1024) _ offsets_zero]
  simp only [View.readAt_eq_ld, harg3.read_unread, harg4.read_unread, harg5.read_unread, harg6.read_unread,
    View.ld_unit_zero (S := S1024x512) offsets_zero, View.ld_unit_zero (S := S1024x1) offsets_zero]

/-- The last step of a row, the accumulator: the same update as at any later step. -/
theorem last_step (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x512 .f32) (x1 : Vec F S1024x512 .i32) (x2 : Vec F S1024x1 .f32) (x3 : Vec F S1024x1 .f32) (x4 : Vec F S1x1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay2 x1 x3 x2 x0 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero offsets_zero]
  simp only [View.readAt_eq_ld, harg3.read_unread, harg4.read_unread, harg5.read_unread, harg6.read_unread,
    harg9.read_unread, View.ld_unit_zero (S := S1024x512) offsets_zero, View.ld_unit_zero (S := S1024x1) offsets_zero,
    View.ld_unit_zero (S := S1024x1024) offsets_zero]

/-- The last step of a row, the output block: the updated accumulator, read back, plus the bias row `b`. -/
theorem last_step_out (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x512 .f32) (x1 : Vec F S1024x512 .i32) (x2 : Vec F S1024x1 .f32) (x3 : Vec F S1024x1 .f32) (x4 : Vec F S1x1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 (k0_pay2 x1 x3 x2 x0 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero offsets_zero, View.readCov_unit_zero (S := S1024x1024) _ offsets_zero]
  simp only [View.readAt_eq_ld, harg3.read_unread, harg4.read_unread, harg5.read_unread, harg6.read_unread, harg7.read_unread,
    harg9.read_unread, View.ld_unit_zero (S := S1024x512) offsets_zero, View.ld_unit_zero (S := S1024x1) offsets_zero,
    View.ld_unit_zero (S := S1024x1024) offsets_zero, View.ld_unit_zero (S := S1x1024) offsets_zero]

end Cert.KernelIdeal.Found

end
-- ==== Proof.StepValue.lean ====
/-
  The body's arithmetic, element by element, over the extended reals.

  At the ideal instance a change of float format is the identity and the matrix unit's product into a zero
  accumulator is the plain sum of products. So the accumulator update at row `p`, column `q` of the 1024 x 1024 block
  is

      acc (p, q) + Σ_{k < 512} x (p, k) · ((float (w (q, k)) − zp (q, 0)) · sc (q, 0)),

  the contraction running over the second axis of BOTH operands (the weight block is stored output-channel major),
  the zero block is 0 everywhere, and the epilogue adds the bias row: acc (p, q) + b (0, q).
-/
import proofs.«141397_j56453050138624_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.StepValue

open Cert.KernelIdeal Cert.KernelIdeal.Gen

/-- One dequantized weight: the integer weight as a real, minus the row's zero point, times the row's scale. -/
def deq (w : BitVec 32) (zp sc : EReal) : EReal := (FloatOps.sitofp (F := Ideal) .f32 w - zp) * sc

/-- The zero block is zero everywhere. -/
theorem zero_block_apply (j : S1024x1024.Idx) : k0_pay1 (F := Ideal) j = 0 := by
  unfold k0_pay1
  simp only [shapeCast_self]
  show Ideal.ofBits .f32 0x00000000#32 = 0
  exact Ideal.ofBits_zero_f32

/-- A per-row column `[1024, 1]` broadcast along the contraction axis reads the row's one entry. -/
theorem column_apply (v : Vec Ideal S1024x1 .f32) (q : Fin 1024) (k : Fin 512) :
    broadcastTo S1024x512 v broadcasts_S1024x1_S1024x512 (ix2 q k) = v (ix2 q (0 : Fin 1)) :=
  broadcastTo_apply v broadcasts_S1024x1_S1024x512 _ _ (fun a => match a with
    | ⟨0, _⟩ => by show q.val = if (1024 : Nat) = 1 then 0 else q.val; rw [if_neg (by decide)]
    | ⟨1, _⟩ => by show 0 = if (1 : Nat) = 1 then 0 else k.val; rw [if_pos rfl])

/-- The contraction's operand indices: the left operand is read at (output row, k), -/
theorem lhs_row (j : S1024x1024.Idx) (k : dot_S1024x512_S1024x512_S1024x1024_1_1_0_0_n_n.contr.Idx) : (dot_S1024x512_S1024x512_S1024x1024_1_1_0_0_n_n.lhsIdx j k 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_contr (j : S1024x1024.Idx) (k : dot_S1024x512_S1024x512_S1024x1024_1_1_0_0_n_n.contr.Idx) : (dot_S1024x512_S1024x512_S1024x1024_1_1_0_0_n_n.lhsIdx j k 1).val = (k ⟨0, by decide⟩).val :=
  dot_S1024x512_S1024x512_S1024x1024_1_1_0_0_n_n.lhsIdx_val_of_single rfl j k
/-- and the right operand at (output column, k). -/
theorem rhs_row (j : S1024x1024.Idx) (k : dot_S1024x512_S1024x512_S1024x1024_1_1_0_0_n_n.contr.Idx) : (dot_S1024x512_S1024x512_S1024x1024_1_1_0_0_n_n.rhsIdx j k 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_contr (j : S1024x1024.Idx) (k : dot_S1024x512_S1024x512_S1024x1024_1_1_0_0_n_n.contr.Idx) : (dot_S1024x512_S1024x512_S1024x1024_1_1_0_0_n_n.rhsIdx j k 1).val = (k ⟨0, by decide⟩).val :=
  dot_S1024x512_S1024x512_S1024x1024_1_1_0_0_n_n.rhsIdx_val_of_single rfl j k

/-- The accumulator update at (p, q). -/
theorem step_apply (w : Vec Ideal S1024x512 .i32) (zp sc : Vec Ideal S1024x1 .f32) (x : Vec Ideal S1024x512 .f32)
    (acc : Vec Ideal S1024x1024 .f32) (p q : Fin 1024) :
    k0_pay2 (F := Ideal) w zp sc x acc (ix2 p q)
      = acc (ix2 p q) + ∑ k : Fin 512, x (ix2 p k) * deq (w (ix2 q k)) (zp (ix2 q (0 : Fin 1))) (sc (ix2 q (0 : Fin 1))) := by
  unfold k0_pay2
  simp only [shapeCast_self]
  rw [addf_apply]
  simp only [matmul]
  rw [Ideal.matmul_constant_zero_apply,
    ← Equiv.sum_comp (contrEquiv1 dot_S1024x512_S1024x512_S1024x1024_1_1_0_0_n_n 512 rfl rfl).symm]
  congr 1
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_row _ _
    | ⟨1, _⟩ => exact (lhs_contr _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_row _ _
    | ⟨1, _⟩ => exact (rhs_contr _ _).trans hk)
  rw [el, er, truncf_apply, truncf_apply, mulf_apply, subf_apply, sitofp_apply, column_apply, column_apply]
  rfl

/-- The epilogue at (p, q): the accumulator plus the bias row's entry of column q. -/
theorem bias_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  simp only [shapeCast_self]
  rw [addf_apply, broadcastTo_1b_ab_apply]

end Cert.KernelIdeal.StepValue

end
-- ==== Proof.LibBlockFold.lean ====
/-
  An accumulator carried over the steps of one block row.

  Let `acc m` be what an accumulator holds after step `m`, and `part m` what step `m` adds. If the first step
  of a row (`m = base`) leaves `0 + part base` and every later step `base + (s + 1)` of the row leaves what the
  step before left plus its own part, then after step `base + s` the accumulator is the sum of the parts of the
  steps `base … base + s`. Induction on `s`; holds in any additive commutative monoid, so for extended reals
  with no finiteness.
-/
import Idealize.ShloMosaic.Lib.ValueIdx

namespace Cert.BlockFold

open scoped BigOperators

theorem fold_blocks {α : Type} [AddCommMonoid α] (n : Nat) (acc part : Nat → α) (base : Nat)
    (h0 : acc base = 0 + part base)
    (hs : ∀ s, s + 1 < n → acc (base + (s + 1)) = acc (base + s) + part (base + (s + 1))) :
    ∀ s, s < n → acc (base + s) = ∑ s' ∈ Finset.range (s + 1), part (base + s') := by
  intro s
  induction s with
  | zero =>
    intro _
    rw [Nat.add_zero, h0, zero_add, Finset.sum_range_one, Nat.add_zero]
  | succ s ih =>
    intro h
    rw [hs s h, ih (Nat.lt_of_succ_lt h), Finset.sum_range_succ (fun s' => part (base + s')) (s + 1)]

end Cert.BlockFold
-- ==== Proof.Accum.lean ====
/-
  What the accumulator block holds after each grid point, and the output block at the end of a row of steps.

  The grid's 256 points run in rows of eight consecutive points (the contraction axis is the innermost grid axis):
  point `t` is step `t % 8` of row `t / 8`. Write `stepSum t (p, q)` for the 512-term sum of products the step at
  point `t` contributes to entry (p, q). Then after the first point of a row the accumulator is `0 + stepSum`, after
  every later point it is what the point before left plus that point's `stepSum`; so after step `s` of a row it is
  the sum of the `stepSum`s of the row's steps 0 … s (an induction along the row), and the output block written at
  the row's last step is that sum over all eight steps plus the bias entry of column q.
-/
import proofs.«141397_j56453050138624_1_alg».proof.Proof.Gen.KernelIdeal.Frame
import proofs.«141397_j56453050138624_1_alg».proof.Proof.Pieces
import proofs.«141397_j56453050138624_1_alg».proof.Proof.StepValue
import proofs.«141397_j56453050138624_1_alg».proof.Proof.LibBlockFold

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.StepValue

variable (m : (ℓ : Loc nD τ sig) → Buf (Elt Ideal) ℓ)

/-- The blocks the body loads at point `t`: the input block, the integer weight block, the scale and zero-point
    columns, the bias row. -/
def xBlk (c : Dev nD) (t : Fin cfg0.N) : Vec Ideal S1024x512 .f32 := iblk m c 0 t
def wBlk (c : Dev nD) (t : Fin cfg0.N) : Vec Ideal S1024x512 .i32 := iblk m c 1 t
def scBlk (c : Dev nD) (t : Fin cfg0.N) : Vec Ideal S1024x1 .f32 := iblk m c 2 t
def zpBlk (c : Dev nD) (t : Fin cfg0.N) : Vec Ideal S1024x1 .f32 := iblk m c 3 t
def bBlk (c : Dev nD) (t : Fin cfg0.N) : Vec Ideal S1x1024 .f32 := iblk m c 4 t

/-- What the step at point `t` adds to entry (p, q) of the accumulator. -/
def stepSum (c : Dev nD) (t : Fin cfg0.N) (p q : Fin 1024) : EReal :=
  ∑ k : Fin 512, xBlk m c t (ix2 p k) * deq (wBlk m c t (ix2 q k)) (zpBlk m c t (ix2 q (0 : Fin 1))) (scBlk m c t (ix2 q (0 : Fin 1)))

/-- The accumulator after a point, as a block. -/
def accAfter (c : Dev nD) (n : Nat) (h : n < cfg0.N) : Vec Ideal S1024x1024 .f32 := (outsAt0 m c n h).2

theorem accAfter_congr (c : Dev nD) {n n' : Nat} (e : n = n') (h : n < cfg0.N) (h' : n' < cfg0.N) :
    accAfter m c n h = accAfter m c n' h' := by subst e; rfl

/-- After the first point of a row: zero plus that point's contribution. -/
theorem acc_first (c : Dev nD) (t : Fin cfg0.N) (h0 : t.val % 8 = 0) (p q : Fin 1024) :
    accAfter m c t.val t.isLt (ix2 p q) = 0 + stepSum m c t p q := by
  have h1 : ¬t.val % 8 = 7 := by omega
  unfold accAfter
  rw [outsAt0_A m c t h0 h1]
  dsimp only
  refine (congrFun (Found.first_step (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) (ix2 p q)).trans ?_
  refine (step_apply (iblk m c 1 t) (iblk m c 3 t) (iblk m c 2 t) (iblk m c 0 t) (k0_pay1 (F := Ideal)) p q).trans ?_
  rw [zero_block_apply]
  rfl

/-- After any later point of a row: what the point before left, plus this point's contribution. -/
theorem acc_later (c : Dev nD) (t : Fin cfg0.N) (h0 : ¬t.val % 8 = 0) (p q : Fin 1024) :
    accAfter m c t.val t.isLt (ix2 p q)
      = accAfter m c (t.val - 1) (Nat.lt_of_le_of_lt (Nat.sub_le _ _) t.isLt) (ix2 p q) + stepSum m c t p q := by
  unfold accAfter
  by_cases h1 : t.val % 8 = 7
  · rw [outsAt0_C m c t h0 h1]
    dsimp only
    refine (congrFun (Found.last_step (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix2 p q)).trans ?_
    exact step_apply (iblk m c 1 t) (iblk m c 3 t) (iblk m c 2 t) (iblk m c 0 t) (outsAt0 m c (t.val - 1) (Nat.lt_of_le_of_lt (Nat.sub_le _ _) t.isLt)).2 p q
  · rw [outsAt0_B m c t h0 h1]
    dsimp only
    refine (congrFun (Found.later_step (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) (ix2 p q)).trans ?_
    exact step_apply (iblk m c 1 t) (iblk m c 3 t) (iblk m c 2 t) (iblk m c 0 t) (outsAt0 m c (t.val - 1) (Nat.lt_of_le_of_lt (Nat.sub_le _ _) t.isLt)).2 p q

/-- At the last point of a row the output block is the accumulator the point leaves plus the bias row. -/
theorem out_last (c : Dev nD) (t : Fin cfg0.N) (h1 : t.val % 8 = 7) (p q : Fin 1024) :
    (outsAt0 m c t.val t.isLt).1 (ix2 p q) = accAfter m c t.val t.isLt (ix2 p q) + bBlk m c t (ix2 (0 : Fin 1) q) := by
  have h0 : ¬t.val % 8 = 0 := by omega
  unfold accAfter
  rw [outsAt0_C m c t h0 h1]
  dsimp only
  rw [congrFun (Found.last_step_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix2 p q),
    congrFun (Found.last_step (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix2 p q)]
  exact bias_apply _ (iblk m c 4 t) p q

/-- The same two quantities on plain naturals (zero past the grid), so that the fold along a row can be stated
    without carrying bounds. -/
def accN (c : Dev nD) (p q : Fin 1024) (n : Nat) : EReal := if h : n < cfg0.N then accAfter m c n h (ix2 p q) else 0
def partN (c : Dev nD) (p q : Fin 1024) (n : Nat) : EReal := if h : n < cfg0.N then stepSum m c ⟨n, h⟩ p q else 0

/-- Along row `g` (points 8g … 8g + 7): after step `s` the accumulator is the sum of the contributions of the
    row's steps 0 … s. -/
theorem row_fold (c : Dev nD) (p q : Fin 1024) (g : Nat) (hg : g < 32) :
    ∀ s, s < 8 → accN m c p q (8 * g + s) = ∑ s' ∈ Finset.range (s + 1), partN m c p q (8 * g + s') := by
  have hN : cfg0.N = 256 := N_0
  refine Cert.BlockFold.fold_blocks 8 (accN m c p q) (partN m c p q) (8 * g) ?_ ?_
  · have hb : 8 * g < cfg0.N := by rw [hN]; omega
    unfold accN partN
    rw [dif_pos hb, dif_pos hb]
    exact acc_first m c ⟨8 * g, hb⟩ (by show (8 * g) % 8 = 0; omega) p q
  · intro s hs
    have hb1 : 8 * g + (s + 1) < cfg0.N := by rw [hN]; omega
    have hb0 : 8 * g + s < cfg0.N := by rw [hN]; omega
    unfold accN partN
    rw [dif_pos hb1, dif_pos hb0, dif_pos hb1]
    rw [acc_later m c ⟨8 * g + (s + 1), hb1⟩ (by show ¬(8 * g + (s + 1)) % 8 = 0; omega) p q]
    rw [accAfter_congr m c (n := (⟨8 * g + (s + 1), hb1⟩ : Fin cfg0.N).val - 1) (n' := 8 * g + s)
      (by show 8 * g + (s + 1) - 1 = 8 * g + s; omega) _ hb0]

/-- The output block written at the last point `t` of a row: the eight contributions of the row, plus the bias. -/
theorem row_out (c : Dev nD) (t : Fin cfg0.N) (h1 : t.val % 8 = 7) (p q : Fin 1024) :
    (outsAt0 m c t.val t.isLt).1 (ix2 p q)
      = (∑ s : Fin 8, partN m c p q (8 * (t.val / 8) + s.val)) + bBlk m c t (ix2 (0 : Fin 1) q) := by
  have hN : cfg0.N = 256 := N_0
  have ht : t.val < 256 := lt_of_lt_of_eq t.isLt hN
  have e : 8 * (t.val / 8) + 7 = t.val := by omega
  have hb : 8 * (t.val / 8) + 7 < cfg0.N := by rw [e]; exact t.isLt
  have hf := row_fold m c p q (t.val / 8) (by omega) 7 (by decide)
  unfold accN at hf
  rw [dif_pos hb] at hf
  rw [out_last m c t h1 p q, accAfter_congr m c e.symm t.isLt hb, hf, Finset.sum_range]

end Cert.KernelIdeal.Accum

end
-- ==== Proof.LibBlockSumN.lean ====
/-
  A sum over `b · n` indices, taken in `b` blocks of `n`.

  In any additive commutative monoid, a sum over the indices `0 … b·n − 1` is the sum over the blocks
  `t = 0 … b − 1` of the sums over the positions `j = 0 … n − 1` inside the block, the index being `t · n + j`:
  the map `(t, j) ↦ t · n + j` is a bijection from pairs to indices, and a sum over pairs is an iterated sum.
  Nothing here needs the summands to be finite, so it holds for extended reals: it is the law that joins a
  contraction accumulated block by block with the whole contraction.
-/
import Idealize.ShloMosaic.Lib.ValueIdx

namespace Cert.BlockSumN

open scoped BigOperators

/-- Position `j` of block `t` is an index below `b · n`. -/
theorem blk_lt {b n : Nat} (t : Fin b) (j : Fin n) : t.val * n + j.val < b * n := by
  have h1 : t.val * n + n ≤ b * n := by
    have : (t.val + 1) * n ≤ b * n := Nat.mul_le_mul_right n t.isLt
    simpa [Nat.succ_mul] using this
  have := j.isLt
  omega

/-- A sum over `b · n` indices is the sum over the `b` blocks of the sums over the `n` positions in a block. -/
theorem sum_blocks {α : Type} [AddCommMonoid α] (b n : Nat) (f : Fin (b * n) → α) :
    ∑ k : Fin (b * n), f k = ∑ t : Fin b, ∑ j : Fin n, f ⟨t.val * n + j.val, blk_lt t j⟩ := by
  rw [← Equiv.sum_comp finProdFinEquiv f, Fintype.sum_prod_type]
  refine Finset.sum_congr rfl fun t _ => Finset.sum_congr rfl fun j _ => ?_
  congr 1
  apply Fin.ext
  show j.val + n * t.val = t.val * n + j.val
  rw [Nat.mul_comm, Nat.add_comm]

/-- The same over `Fin K` with `K = b · n` given as an equation (for a literal `K`). -/
theorem sum_blocks_of_eq {α : Type} [AddCommMonoid α] {K : Nat} (b n : Nat) (hK : K = b * n) (f : Fin K → α) :
    ∑ k : Fin K, f k = ∑ t : Fin b, ∑ j : Fin n, f ⟨t.val * n + j.val, hK ▸ blk_lt t j⟩ := by
  subst hK
  exact sum_blocks b n f

end Cert.BlockSumN
-- ==== Proof.Blocks.lean ====
/-
  From blocks to the whole result array.

  Point `t` of the grid is (i, j, k) = (t / 32, t / 8 % 4, t % 8): row block `i` of the 8192 x 4096 input, output
  channel block `j`, contraction block `k`. The blocks the body loads there are the corresponding rectangles of
  the arrays the region finds: input rows 1024 i …, columns 512 k …; weight rows 1024 j …, columns 512 k …; the scale
  and zero-point entries of rows 1024 j …; the bias entries of columns 1024 j …. So the eight 512-term contributions of
  a row of steps are the eight consecutive blocks of the one 4096-term contraction, and the block written back at
  the row's last point is block (i, j) of the whole-array function

      result (r, o) = Σ_{kk < 4096} x (r, kk) · ((float (w (o, kk)) − zp (o, 0)) · sc (o, 0)) + b (0, o).

  The 32 written-back blocks tile the 8192 x 4096 array, so the array ends holding `result`. Regrouping a sum of
  4096 terms into eight sums of 512 needs only that addition is associative and commutative, which it is on the
  extended reals: no input has to be finite.
-/
import proofs.«141397_j56453050138624_1_alg».proof.Proof.Gen.KernelIdeal.Frame
import proofs.«141397_j56453050138624_1_alg».proof.Proof.Accum
import proofs.«141397_j56453050138624_1_alg».proof.Proof.LibBlockSumN
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.StepValue Cert.KernelIdeal.Accum

variable (m : (ℓ : Loc nD τ sig) → Buf (Elt Ideal) ℓ)

/-- The arrays as the region finds them: the flattened input, the integer weights, scale, zero point, the bias row. -/
def X (c : Dev nD) : S8192x4096.Idx → EReal := V m c main_v0
def W (c : Dev nD) : S4096x4096.Idx → BitVec 32 := V m c main_arg1
def SC (c : Dev nD) : S4096x1.Idx → EReal := V m c main_arg2
def ZP (c : Dev nD) : S4096x1.Idx → EReal := V m c main_arg3
def B (c : Dev nD) : S1x4096.Idx → EReal := V m c main_v1

/-- One term of the contraction at output (r, o). -/
def term (c : Dev nD) (r : Fin 8192) (o kk : Fin 4096) : EReal :=
  X m c (ix2 r kk) * deq (W m c (ix2 o kk)) (ZP m c (ix2 o (0 : Fin 1))) (SC m c (ix2 o (0 : Fin 1)))

/-- The whole 8192 x 4096 result. -/
def result (c : Dev nD) : S8192x4096.Idx → EReal := fun j =>
  (∑ kk : Fin 4096, term m c (j 0) (j 1) kk) + B m c (ix2 (0 : Fin 1) (j 1))

/-- The windows' block indices at every point, decided over the grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = 0
    ∧ win0_3.index t (0 : Fin 2) = t.val / 8 % 4 ∧ win0_3.index t (1 : Fin 2) = 0
    ∧ win0_4.index t (0 : Fin 2) = 0 ∧ win0_4.index t (1 : Fin 2) = t.val / 8 % 4
    ∧ win0_5.index t (0 : Fin 2) = t.val / 32 ∧ win0_5.index t (1 : Fin 2) = t.val / 8 % 4 :=
  (by decide +kernel : ∀ t : Fin grid0.N, _)

/-- The input block at point `t`, entry (p, k), is the input at row 1024 (t / 32) + p, column 512 (t % 8) + k. -/
theorem xBlk_apply (c : Dev nD) (t : Fin cfg0.N) (p : Fin 1024) (k : Fin 512) (r : Fin 8192) (kk : Fin 4096)
    (hr : r.val = 1024 * (t.val / 32) + p.val) (hk : kk.val = 512 * (t.val % 8) + k.val) :
    xBlk m c t (ix2 p k) = X m c (ix2 r kk) := by
  obtain ⟨e0, e1, -⟩ := idx_facts t
  unfold xBlk iblk X
  rw [View.read_apply]
  show V m c main_v0 _ = V m c main_v0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 512 + 1 * k.val = kk.val; rw [e1, hk]; omega

/-- The weight block at point `t`, entry (q, k), is the weight at row 1024 (t / 8 % 4) + q, column 512 (t % 8) + k. -/
theorem wBlk_apply (c : Dev nD) (t : Fin cfg0.N) (q : Fin 1024) (k : Fin 512) (o kk : Fin 4096)
    (ho : o.val = 1024 * (t.val / 8 % 4) + q.val) (hk : kk.val = 512 * (t.val % 8) + k.val) :
    wBlk m c t (ix2 q k) = W m c (ix2 o kk) := by
  obtain ⟨-, -, e0, e1, -⟩ := idx_facts t
  unfold wBlk iblk W
  rw [View.read_apply]
  show V m c main_arg1 _ = V m c main_arg1 _
  congr 1
  funext a
  apply Fin.ext
  match a with
  | ⟨0, _⟩ => show win0_1.index t (0 : Fin 2) * 1024 + 1 * q.val = o.val; rw [e0, ho]; omega
  | ⟨1, _⟩ => show win0_1.index t (1 : Fin 2) * 512 + 1 * k.val = kk.val; rw [e1, hk]; omega

/-- The scale column at point `t`, entry q, is the scale of row 1024 (t / 8 % 4) + q. -/
theorem scBlk_apply (c : Dev nD) (t : Fin cfg0.N) (q : Fin 1024) (o : Fin 4096)
    (ho : o.val = 1024 * (t.val / 8 % 4) + q.val) :
    scBlk m c t (ix2 q (0 : Fin 1)) = SC m c (ix2 o (0 : Fin 1)) := by
  obtain ⟨-, -, -, -, e0, e1, -⟩ := idx_facts t
  unfold scBlk iblk SC
  rw [View.read_apply]
  show V m c main_arg2 _ = V m c main_arg2 _
  congr 1
  funext a
  apply Fin.ext
  match a with
  | ⟨0, _⟩ => show win0_2.index t (0 : Fin 2) * 1024 + 1 * q.val = o.val; rw [e0, ho]; omega
  | ⟨1, _⟩ => show win0_2.index t (1 : Fin 2) * 1 + 1 * 0 = 0; rw [e1]

/-- The zero-point column likewise. -/
theorem zpBlk_apply (c : Dev nD) (t : Fin cfg0.N) (q : Fin 1024) (o : Fin 4096)
    (ho : o.val = 1024 * (t.val / 8 % 4) + q.val) :
    zpBlk m c t (ix2 q (0 : Fin 1)) = ZP m c (ix2 o (0 : Fin 1)) := by
  obtain ⟨-, -, -, -, -, -, e0, e1, -⟩ := idx_facts t
  unfold zpBlk iblk ZP
  rw [View.read_apply]
  show V m c main_arg3 _ = V m c main_arg3 _
  congr 1
  funext a
  apply Fin.ext
  match a with
  | ⟨0, _⟩ => show win0_3.index t (0 : Fin 2) * 1024 + 1 * q.val = o.val; rw [e0, ho]; omega
  | ⟨1, _⟩ => show win0_3.index t (1 : Fin 2) * 1 + 1 * 0 = 0; rw [e1]

/-- The bias row at point `t`, entry q, is the bias of column 1024 (t / 8 % 4) + q. -/
theorem bBlk_apply (c : Dev nD) (t : Fin cfg0.N) (q : Fin 1024) (o : Fin 4096)
    (ho : o.val = 1024 * (t.val / 8 % 4) + q.val) :
    bBlk m c t (ix2 (0 : Fin 1) q) = B m c (ix2 (0 : Fin 1) o) := by
  obtain ⟨-, -, -, -, -, -, -, -, e0, e1, -⟩ := idx_facts t
  unfold bBlk iblk B
  rw [View.read_apply]
  show V m c main_v1 _ = V m c main_v1 _
  congr 1
  funext a
  apply Fin.ext
  match a with
  | ⟨0, _⟩ => show win0_4.index t (0 : Fin 2) * 1 + 1 * 0 = 0; rw [e0]
  | ⟨1, _⟩ => show win0_4.index t (1 : Fin 2) * 1024 + 1 * q.val = o.val; rw [e1, ho]; omega

/-- A point's contribution to entry (p, q), over the arrays: the 512 terms of the contraction whose indices
    `kk k` are 512 (t % 8) + k. -/
theorem stepSum_apply (c : Dev nD) (t : Fin cfg0.N) (p q : Fin 1024) (r : Fin 8192) (o : Fin 4096) (kk : Fin 512 → Fin 4096)
    (hr : r.val = 1024 * (t.val / 32) + p.val) (ho : o.val = 1024 * (t.val / 8 % 4) + q.val)
    (hkk : ∀ k, (kk k).val = 512 * (t.val % 8) + k.val) :
    stepSum m c t p q = ∑ k : Fin 512, term m c r o (kk k) := by
  unfold stepSum term
  refine Finset.sum_congr rfl fun k _ => ?_
  rw [xBlk_apply m c t p k r (kk k) hr (hkk k), wBlk_apply m c t q k o (kk k) ho (hkk k), zpBlk_apply m c t q o ho,
    scBlk_apply m c t q o ho]

end Cert.KernelIdeal.Blocks

end
-- ==== Proof.ResultArray.lean ====
/-
  The result array after the run.

  Block (i, j) of the 8192 x 4096 result is written back once, at the last point of the row of steps (i, j, ·),
  and holds there the eight 512-term contributions of the row plus the bias: the 4096-term contraction taken in
  eight consecutive blocks. Every index (r, o) lies in exactly the block (r / 1024, o / 1024), written at point
  32 (r / 1024) + 8 (o / 1024) + 7; so the array ends holding `Blocks.result`.
-/
import proofs.«141397_j56453050138624_1_alg».proof.Proof.Gen.KernelIdeal.Frame
import proofs.«141397_j56453050138624_1_alg».proof.Proof.Blocks
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.ResultArray

open Cert.KernelIdeal Cert.KernelIdeal.Gen Cert.KernelIdeal.StepValue Cert.KernelIdeal.Accum Cert.KernelIdeal.Blocks

variable (m : (ℓ : Loc nD τ sig) → Buf (Elt Ideal) ℓ)

/-- Two functions on a 1024 x 1024 block agree when they agree at every (p, q). -/
theorem block_ext {α : Type} (f g : S1024x1024.Idx → α) (h : ∀ p q : Fin 1024, f (ix2 p q) = g (ix2 p q)) : f = g :=
  funext fun y => by rw [eq_ix2 y]; exact h _ _

/-- The eight contributions of the row ending at point `t`, over the arrays, are the whole contraction. -/
theorem row_sum (c : Dev nD) (t : Fin cfg0.N) (h1 : t.val % 8 = 7) (p q : Fin 1024) (r : Fin 8192) (o : Fin 4096)
    (hr : r.val = 1024 * (t.val / 32) + p.val) (ho : o.val = 1024 * (t.val / 8 % 4) + q.val) :
    (∑ s : Fin 8, partN m c p q (8 * (t.val / 8) + s.val)) = ∑ kk : Fin 4096, term m c r o kk := by
  have hN : cfg0.N = 256 := N_0
  have ht : t.val < 256 := lt_of_lt_of_eq t.isLt hN
  rw [Cert.BlockSumN.sum_blocks_of_eq 8 512 (by norm_num : (4096 : Nat) = 8 * 512) (term m c r o)]
  refine Finset.sum_congr rfl fun s _ => ?_
  have hs : s.val < 8 := s.isLt
  have hb : 8 * (t.val / 8) + s.val < cfg0.N := lt_of_lt_of_eq (by omega : 8 * (t.val / 8) + s.val < 256) hN.symm
  unfold partN
  rw [dif_pos hb]
  exact stepSum_apply m c ⟨8 * (t.val / 8) + s.val, hb⟩ p q r o _
    (by show r.val = 1024 * ((8 * (t.val / 8) + s.val) / 32) + p.val; rw [hr]; omega)
    (by show o.val = 1024 * ((8 * (t.val / 8) + s.val) / 8 % 4) + q.val; rw [ho]; omega)
    (fun k => by show s.val * 512 + k.val = 512 * ((8 * (t.val / 8) + s.val) % 8) + k.val; omega)

/-- What a writing point writes back is its block of `result`. -/
theorem flushed_eq (c : Dev nD) (t : Fin cfg0.N) (hf : (cfg0.win 5).flush t = true) :
    (dats m 0 c).flushed 5 t = ((cfg0.win 5).blk t).view.read (Elt Ideal) (result m c) := by
  have h1 : t.val % 8 = 7 := (flush0_5 t).mp hf
  have hN : cfg0.N = 256 := N_0
  have ht : t.val < 256 := lt_of_lt_of_eq t.isLt hN
  obtain ⟨-, -, -, -, -, -, -, -, -, -, e0, e1⟩ := idx_facts t
  show (cfg0.win 5).cut (grid0.coords t) ((dats m 0 c).after 5 t) = _
  rw [after0_5]
  refine block_ext _ _ fun p q => ?_
  have hp : p.val < 1024 := p.isLt
  have hq : q.val < 1024 := q.isLt
  rw [View.read_apply]
  show (outsAt0 m c t.val t.isLt).1 (ix2 p q) = result m c (((cfg0.win 5).blk t).view.emb (ix2 p q))
  obtain ⟨r, hr⟩ : ∃ r : Fin 8192, r.val = 1024 * (t.val / 32) + p.val := ⟨⟨_, by omega⟩, rfl⟩
  obtain ⟨o, ho⟩ : ∃ o : Fin 4096, o.val = 1024 * (t.val / 8 % 4) + q.val := ⟨⟨_, by omega⟩, rfl⟩
  have hemb : ((cfg0.win 5).blk t).view.emb (ix2 p q) = ix2 r o := by
    funext a
    apply Fin.ext
    match a with
    | ⟨0, _⟩ => show win0_5.index t (0 : Fin 2) * 1024 + 1 * p.val = r.val; rw [e0, hr]; omega
    | ⟨1, _⟩ => show win0_5.index t (1 : Fin 2) * 1024 + 1 * q.val = o.val; rw [e1, ho]; omega
  rw [hemb, row_out m c t h1 p q]
  show _ = (∑ kk : Fin 4096, term m c r o kk) + B m c (ix2 (0 : Fin 1) o)
  rw [row_sum m c t h1 p q r o hr ho, bBlk_apply m c t q o ho]

/-- An index of the array is in point `t`'s block iff each coordinate is in the block's range on its axis. -/
theorem mem_blk (t : Fin cfg0.N) (i : S8192x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v2).slice (win0_5.rect t)).set ↔ _
  rw [View.set_slice_whole, Rect.mem_set_unit]
  exact Iff.rfl

/-- Every index of the array lies in the block of a writing point. -/
theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 256 := N_0
  have hn : 32 * ((i 0).val / 1024) + 8 * ((i 1).val / 1024) + 7 < cfg0.N := by rw [hN]; omega
  refine ⟨⟨32 * ((i 0).val / 1024) + 8 * ((i 1).val / 1024) + 7, hn⟩,
    (flush0_5 _).mpr (by show (32 * ((i 0).val / 1024) + 8 * ((i 1).val / 1024) + 7) % 8 = 7; omega), ?_⟩
  obtain ⟨-, -, -, -, -, -, -, -, -, -, e0, e1⟩ := idx_facts ⟨32 * ((i 0).val / 1024) + 8 * ((i 1).val / 1024) + 7, hn⟩
  rw [mem_blk]
  intro a
  match a with
  | ⟨0, _⟩ =>
    show win0_5.index _ (0 : Fin 2) * 1024 ≤ (i 0).val ∧ (i 0).val < win0_5.index _ (0 : Fin 2) * 1024 + 1024
    rw [e0]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win0_5.index _ (1 : Fin 2) * 1024 ≤ (i 1).val ∧ (i 1).val < win0_5.index _ (1 : Fin 2) * 1024 + 1024
    rw [e1]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

/-- The array after the run is `result`. -/
theorem final (c : Dev nD) : (dats m 0 c).arrAt 5 cfg0.N = result m c :=
  (dats m 0 c).arrAt_eq_of_cover 5 (result m c) (flushed_eq m c) cover

end Cert.KernelIdeal.ResultArray

end
-- ==== Proof.Spec.lean ====
/-
  The function both programs compute: a linear layer with weights dequantized per output channel.

  For an input `x` of shape [4, 2048, 4096], integer weights `w` [4096, 4096] (output channel major), per-channel
  scale `sc` and zero point `zp` [4096, 1] and a bias `b` [4096], over the extended reals:

      out (b₀, s, o) = Σ_{i < 4096} x (b₀, s, i) · ((float (w (o, i)) − zp (o, 0)) · sc (o, 0)) + b (o).
-/
import Idealize.ShloMosaic.PureOps.Ideal
import Idealize.ShloMosaic.Lib.ValueIdx

noncomputable section

open Idealize.ShloMosaic Idealize.ShloMosaic.ValueIdx

namespace Cert.Spec

/-- The dequantized linear layer, index by index. -/
def linear (x : (⟨3, ![4, 2048, 4096]⟩ : Shape).Idx → EReal) (w : (⟨2, ![4096, 4096]⟩ : Shape).Idx → BitVec 32)
    (sc zp : (⟨2, ![4096, 1]⟩ : Shape).Idx → EReal) (b : (⟨1, ![4096]⟩ : Shape).Idx → EReal) :
    (⟨3, ![4, 2048, 4096]⟩ : Shape).Idx → EReal := fun i =>
  (∑ kk : Fin 4096, x (ix3 (i 0) (i 1) kk)
      * ((FloatOps.sitofp (F := Ideal) .f32 (w (ix2 (i 2) kk)) - zp (ix2 (i 2) (0 : Fin 1))) * sc (ix2 (i 2) (0 : Fin 1))))
    + b (ix1 (i 2))

end Cert.Spec

end
-- ==== Proof.KernelRun.lean ====
/-
  The idealized kernel's run, read: its result buffer ends holding `Spec.linear` of the arguments.

  Before the region the host flattens the input [4, 2048, 4096] to [8192, 4096] (row b₀·2048 + s) and gives the bias a
  leading unit axis; after it the host unflattens the region's [8192, 4096] array. A flatten keeps row-major
  positions, so the region's `result` at row b₀·2048 + s, column o, read through these reshapes, is the linear layer at
  (b₀, s, o) of the arguments themselves.
-/
import proofs.«141397_j56453050138624_1_alg».proof.Proof.Gen.KernelIdeal.Frame
import proofs.«141397_j56453050138624_1_alg».proof.Proof.ResultArray
import proofs.«141397_j56453050138624_1_alg».proof.Proof.Spec
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.StepValue Cert.KernelIdeal.Blocks Cert.KernelIdeal.ResultArray

variable (m : (ℓ : Loc nD τ sig) → Buf (Elt Ideal) ℓ) (ρ : Dev nD → PrngReg)

/-- The region finds the input flattened, -/
theorem X_eq (c : Dev nD) :
    X m c = shapeCast S8192x4096 (m ((c : Thread nD τ).loc main_arg0)) shapeCasts_S4x2048x4096_S8192x4096 := by
  unfold X
  show StableHlo.after hostOps0 (fun b => m (c, b)) (Proc.devRef .tc main_v0) = _
  after_results
  rfl

/-- the bias as one row, -/
theorem B_eq (c : Dev nD) :
    B m c = shapeCast S1x4096 (m ((c : Thread nD τ).loc main_arg4)) shapeCasts_S4096_S1x4096 := by
  unfold B
  show StableHlo.after hostOps0 (fun b => m (c, b)) (Proc.devRef .tc main_v1) = _
  after_results
  rfl

/-- and the weights, scale and zero point as launched. -/
theorem W_eq (c : Dev nD) : W m c = m ((c : Thread nD τ).loc main_arg1) := V_main_arg1 m c
theorem SC_eq (c : Dev nD) : SC m c = m ((c : Thread nD τ).loc main_arg2) := V_main_arg2 m c
theorem ZP_eq (c : Dev nD) : ZP m c = m ((c : Thread nD τ).loc main_arg3) := V_main_arg3 m c

/-- The flattened input at row b₀·2048 + s is the input at (b₀, s). -/
theorem X_apply (c : Dev nD) (i0 : Fin 4) (i1 : Fin 2048) (kk : Fin 4096) (r : Fin 8192) (hr : r.val = i0.val * 2048 + i1.val) :
    X m c (ix2 r kk) = m ((c : Thread nD τ).loc main_arg0) (ix3 i0 i1 kk) := by
  rw [X_eq]
  exact shapeCast_apply _ shapeCasts_S4x2048x4096_S8192x4096 _ _ (by
    rw [Shape.rowMajor_val_three, Shape.rowMajor_val_two]
    show (i0.val * 2048 + i1.val) * 4096 + kk.val = r.val * 4096 + kk.val
    rw [hr])

/-- The bias row at column o is the bias at o. -/
theorem B_apply (c : Dev nD) (o : Fin 4096) : B m c (ix2 (0 : Fin 1) o) = m ((c : Thread nD τ).loc main_arg4) (ix1 o) := by
  rw [B_eq]
  exact shapeCast_a_1a_apply _ shapeCasts_S4096_S1x4096 (0 : Fin 1) o

/-- What the kernel's result buffer ends holding. -/
def out (c : Dev nD) : S4x2048x4096.Idx → EReal :=
  Cert.Spec.linear (m ((c : Thread nD τ).loc main_arg0)) (m ((c : Thread nD τ).loc main_arg1))
    (m ((c : Thread nD τ).loc main_arg2)) (m ((c : Thread nD τ).loc main_arg3)) (m ((c : Thread nD τ).loc main_arg4))

/-- The region's array, unflattened, is the linear layer of the arguments. -/
theorem unflatten_result (c : Dev nD) :
    shapeCast S4x2048x4096 (result m c) shapeCasts_S8192x4096_S4x2048x4096 = out m c := by
  funext i
  obtain ⟨i0, i1, i2, rfl⟩ : ∃ (i0 : Fin 4) (i1 : Fin 2048) (i2 : Fin 4096), i = ix3 i0 i1 i2 := ⟨i 0, i 1, i 2, eq_ix3 i⟩
  have h0 : i0.val < 4 := i0.isLt
  have h1 : i1.val < 2048 := i1.isLt
  obtain ⟨r, hr⟩ : ∃ r : Fin 8192, r.val = i0.val * 2048 + i1.val := ⟨⟨_, by omega⟩, rfl⟩
  rw [shapeCast_apply (result m c) shapeCasts_S8192x4096_S4x2048x4096 (ix3 i0 i1 i2) (ix2 r i2) (by
    rw [Shape.rowMajor_val_three, Shape.rowMajor_val_two]
    show r.val * 4096 + i2.val = (i0.val * 2048 + i1.val) * 4096 + i2.val
    rw [hr])]
  show (∑ kk : Fin 4096, term m c r i2 kk) + B m c (ix2 (0 : Fin 1) i2) = _
  rw [B_apply]
  unfold out Cert.Spec.linear
  congr 1
  refine Finset.sum_congr rfl fun kk _ => ?_
  unfold term deq
  rw [X_apply m c i0 i1 kk r hr, W_eq, SC_eq, ZP_eq]

/-- After the region the host unflattens its array into the result buffer. -/
theorem tail_eq (c : Dev nD) : Pipeline.afterTail₀ cfgs (dats m) 0 (V0 m) [hostOps1] c main_v3 = out m c := by
  rw [← unflatten_result]
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2)
      = result m c from (Pipeline.withArrays_arr spec0 launch0.win.arr_inj c _ _ 5).trans (final m c)]
  rfl

/-- The run: every weakly fair execution terminates with the result buffer at `out` and the arguments unchanged. -/
theorem run : θ_run defs (onTc (τ := τ) (main (F := Ideal))) ⟨m, fun _ => 0, ρ⟩ (fun r => ∀ c : Dev nD,
      r.2.mem ((c.tc : Thread nD τ).loc main_v3) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KernelRun

end
-- ==== Proof.RefValue.lean ====
/-
  The reference's result is the same function.

  The reference dequantizes the whole weight matrix (convert, subtract the broadcast zero point, multiply by the
  broadcast scale), contracts the input's last axis with the weights' last axis in one `dot_general`, and adds the
  bias broadcast over the leading axes. Read at an index (b₀, s, o) at the ideal instance this is
  Σ_{i < 4096} x (b₀, s, i) · ((float (w (o, i)) − zp (o, 0)) · sc (o, 0)) + b (o): `Spec.linear`.
-/
import proofs.«141397_j56453050138624_1_alg».proof.Proof.Gen.ReferenceIdeal.Read
import proofs.«141397_j56453050138624_1_alg».proof.Proof.Spec

noncomputable section

open Idealize.ShloMosaic Idealize.ShloMosaic.ValueIdx

namespace Cert.ReferenceIdeal.RefValue

open Cert.ReferenceIdeal Cert.ReferenceIdeal.Gen Cert.ReferenceIdeal.Read

theorem reference_eq (x0 : (⟨S4x2048x4096, .f32⟩ : BufTy).Contents (Elt Ideal)) (x1 : (⟨S4096x4096, .i32⟩ : BufTy).Contents (Elt Ideal))
    (x2 x3 : (⟨S4096x1, .f32⟩ : BufTy).Contents (Elt Ideal)) (x4 : (⟨S4096, .f32⟩ : BufTy).Contents (Elt Ideal)) :
    val_main_v8 (F := Ideal) x0 x1 x2 x3 x4 = Cert.Spec.linear x0 x1 x2 x3 x4 := by
  funext i
  obtain ⟨i0, i1, i2, rfl⟩ : ∃ (i0 : Fin 4) (i1 : Fin 2048) (i2 : Fin 4096), i = ix3 i0 i1 i2 := ⟨i 0, i 1, i 2, eq_ix3 i⟩
  have el : ∀ k : Fin 4096, lidx_main_v5 (ix3 i0 i1 i2) k = ix3 i0 i1 k := fun k => funext fun a => Fin.ext (by
    match a with
    | ⟨0, _⟩ => rfl
    | ⟨1, _⟩ => rfl
    | ⟨2, _⟩ => rfl)
  have er : ∀ k : Fin 4096, ridx_main_v5 (ix3 i0 i1 i2) k = ix2 i2 k := fun k => funext fun a => Fin.ext (by
    match a with
    | ⟨0, _⟩ => rfl
    | ⟨1, _⟩ => rfl)
  have e1 : ∀ k : Fin 4096, idx_main_v1 (ix2 i2 k) = ix2 i2 (0 : Fin 1) := fun k => funext fun a => Fin.ext (by
    match a with
    | ⟨0, _⟩ => rfl
    | ⟨1, _⟩ => rfl)
  have e3 : ∀ k : Fin 4096, idx_main_v3 (ix2 i2 k) = ix2 i2 (0 : Fin 1) := fun k => funext fun a => Fin.ext (by
    match a with
    | ⟨0, _⟩ => rfl
    | ⟨1, _⟩ => rfl)
  have e7 : idx_main_v6 (idx_main_v7 (ix3 i0 i1 i2)) = ix1 i2 := funext fun a => Fin.ext (by
    match a with
    | ⟨0, _⟩ => rfl)
  rw [val_main_v8_apply, val_main_v5_apply, val_main_v7_apply, val_main_v6_apply, e7]
  unfold Cert.Spec.linear
  show _ + _ = _ + _
  congr 1
  refine Finset.sum_congr rfl fun k _ => ?_
  rw [el, er, val_main_v4_apply, val_main_v2_apply, val_main_v0_apply, val_main_v1_apply, val_main_v3_apply, e1, e3]
  rfl

end Cert.ReferenceIdeal.RefValue

end
-- ==== Proof.lean ====
/-
  The kernel computes a linear layer with int8-valued weights dequantized per output channel,
  out (b₀, s, o) = Σ_i x (b₀, s, i) · ((float (w (o, i)) − zp (o)) · sc (o)) + bias (o), as a tiled matrix product: the
  4096-term contraction is cut into eight blocks of 512, each grid step adds its block's partial products onto an
  accumulator that starts at zero, and the last step of each row of steps adds the bias and writes the block out.
  The reference forms the dequantized weight matrix and contracts once. Over the extended reals, where a change of
  float format is the identity, the two agree: a sum of 4096 terms equals the sum of its eight consecutive 512-term
  blocks added in order onto zero, by associativity and commutativity of addition alone, so no finiteness of the
  inputs is used. The idealization rewrote nothing, so that conjunct is trivial; the three frame conjuncts are the
  generated frames (the reference's is its run with the result dropped).
-/
import proofs.«141397_j56453050138624_1_alg».proof.Defs
import proofs.«141397_j56453050138624_1_alg».proof.Proof.Gen.Kernel
import proofs.«141397_j56453050138624_1_alg».proof.Proof.Gen.Kernel.Skeleton
import proofs.«141397_j56453050138624_1_alg».proof.Proof.Gen.Kernel.Launch
import proofs.«141397_j56453050138624_1_alg».proof.Proof.Gen.Kernel.Points
import proofs.«141397_j56453050138624_1_alg».proof.Proof.Gen.Kernel.Frame
import proofs.«141397_j56453050138624_1_alg».proof.Proof.Gen.KernelIdeal
import proofs.«141397_j56453050138624_1_alg».proof.Proof.Gen.KernelIdeal.Skeleton
import proofs.«141397_j56453050138624_1_alg».proof.Proof.Gen.KernelIdeal.Launch
import proofs.«141397_j56453050138624_1_alg».proof.Proof.Gen.KernelIdeal.Points
import proofs.«141397_j56453050138624_1_alg».proof.Proof.Gen.KernelIdeal.Frame
import proofs.«141397_j56453050138624_1_alg».proof.Proof.Gen.ReferenceIdeal
import proofs.«141397_j56453050138624_1_alg».proof.Proof.Gen.ReferenceIdeal.Run
import proofs.«141397_j56453050138624_1_alg».proof.Proof.Gen.ReferenceIdeal.Read
import proofs.«141397_j56453050138624_1_alg».proof.Proof.Gen.Pre_finite_inputs
import proofs.«141397_j56453050138624_1_alg».proof.Proof.KernelRun
import proofs.«141397_j56453050138624_1_alg».proof.Proof.RefValue
import Idealize.ShloMosaic.Adequacy
import Idealize.ShloMosaic.Init

noncomputable section

namespace Cert.Proof

open Idealize.ShloMosaic Idealize.SL.Sem

/-- The word-level kernel terminates without fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is straight-line host code: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the linear layer of those arguments in
    their result buffers. -/
theorem algebraic : Cert.algebraic_KernelIdeal_ReferenceIdeal := by
  intro m ρ m' ρ' _ hagree
  refine ⟨fun c => Cert.KernelIdeal.KernelRun.out m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_eq, (hagree c).1, (hagree c).2.1,
    (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
